-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 87
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .f32⟩
  | .hbm, ⟨61, _⟩ => ⟨S50000x128, .f32⟩
  | .hbm, ⟨62, _⟩ => ⟨S50000x128, .f32⟩
  | .hbm, ⟨63, _⟩ => ⟨S128x128, .f32⟩
  | .hbm, ⟨64, _⟩ => ⟨S128x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x1, .f32⟩
  | .hbm, ⟨81, _⟩ => ⟨S50000x128, .f32⟩
  | .hbm, ⟨82, _⟩ => ⟨S50000x128, .f32⟩
  | .hbm, ⟨83, _⟩ => ⟨S128x128, .f32⟩
  | .hbm, ⟨84, _⟩ => ⟨S128x128, .f32⟩
  | .hbm, ⟨85, _⟩ => ⟨S1x128, .f32⟩
  | .hbm, ⟨86, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S128x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x128, .f32⟩
  | .hbm, ⟨96, _⟩ => ⟨S_, .f32⟩
  | .hbm, ⟨97, _⟩ => ⟨S50000x128, .f32⟩
  | .hbm, ⟨98, _⟩ => ⟨S800000x1, .i32⟩
  | .hbm, ⟨99, _⟩ => ⟨S50000x128, .f32⟩
  | .hbm, ⟨100, _⟩ => ⟨S_, .f32⟩
  | .hbm, ⟨101, _⟩ => ⟨S800000, .f32⟩
  | .hbm, ⟨102, _⟩ => ⟨S_, .f32⟩
  | .hbm, ⟨103, _⟩ => ⟨S50000, .f32⟩
  | .hbm, ⟨104, _⟩ => ⟨S800000x1, .i32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x128, .f32⟩
  | .hbm, ⟨111, _⟩ => ⟨S50000x128, .f32⟩
  | .hbm, ⟨112, _⟩ => ⟨S128x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S128x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with what every buffer holds at the end.

  The program is six segments: host operations, a kernel launch, host operations, a second launch, host operations, a
  third launch. Write `W0` for a core's buffers at launch; each stretch of host operations maps the contents before it
  to the contents after it, and each launch replaces its own arrays by what its grid of write-backs leaves and keeps
  every other buffer. `W6` is the contents after the sixth segment. Every weakly fair execution of the program from a
  memory with zero semaphore counters terminates without a fault, and at the end every buffer that outlives a kernel
  launch holds what `W6` gives it (`run_all`).

  Two readings of that: the eleven argument arrays are written by no segment, so they end as launched; and the result
  array is the third launch's output array, so it ends at `W6` of that buffer (`run_named`) — the array whose contents
  the later modules compute as three dense layers.
-/
import proofs.«177692_j26731876451050_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution terminates without a fault, and every buffer that
    outlives a launch ends at the contents after the last segment.

    The launch funds every pipeline's staging cells and asks for nothing more (no core owes another anything, no
    resource rides beside the buffers but the generator register); the first thread state is the launch memory read as
    the host operations' valuation; consecutive segments agree on the contents between them by definition; and the last
    thread state, read against a final machine state, says the buffers hold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; beside it, nothing per core
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      -- core by core: the launch memory is the first valuation; the register and the empty debt ride along
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W6 m ρ c b)
    (hfin := fun c s' => by
      -- holding every such buffer at `W6` against the machine state says the memory agrees with `W6` there
      iintro ⟨⟨Hbufs, -⟩, HSI⟩
      unfold StableHlo.held
      imodintro
      iapply (pointsTo_read_all (Pipeline.ucRefs τ sig) (fun b => (((c : Thread nD τ)).1, b)) (W6 m ρ c) s')
      isplitl [Hbufs] <;> iassumption)
    (hQ := fun _ h => h)

/-- The same run, reading the result array and the arguments: the result's buffer at `W6` of it, each argument as
    launched (no segment writes an argument). -/
theorem run_named : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v62 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (run_all m ρ)

end Cert.KernelIdeal.Hand

end
-- ==== Proof.Sage.lean ====
/-
  One SAGE layer's dense step, as a function of whole arrays over the extended reals, and the two laws that join the
  kernel's spelling of a layer to the reference's.

  A layer takes the node features `h` ([50000, 128]), the neighbour mean `mean` (same shape), two weight matrices
  already transposed (`wl`, `wr`: [128, 128], entry (k, j) multiplies feature k into output column j) and a bias row
  ([1, 128]). Row `p`, column `q` of the result is

      act ( (∑ₖ mean[p,k] · wl[k,q]  +  ∑ₖ h[p,k] · wr[k,q])  +  b[0,q] ),

  `act` the maximum with zero on the first two layers and the identity on the last.

  The two programs differ in two places only. The kernel multiplies the neighbour sum by the reciprocal `1 / max(cnt, 1)`
  where the reference divides by `max(cnt, 1)`: on the extended reals these agree because `max(x, 1) ≥ 1` is never
  zero, whatever `x` is (`mul_recip_max_one`) — no finiteness is used. And the reference adds the bias before the second
  product, the kernel after: addition of extended reals is commutative and associative (`add_right_comm`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: 50000 rows of 128. -/
abbrev Nodes : Shape := ⟨2, ![50000, 128]⟩
/-- A (transposed) weight matrix. -/
abbrev Wts : Shape := ⟨2, ![128, 128]⟩
/-- The bias as a row. -/
abbrev Row : Shape := ⟨2, ![1, 128]⟩

/-- The binary32 word of `1.0` denotes the real one. -/
theorem one_word : Ideal.ofBits .f32 0x3F800000#32 = 1 := by
  simp [Ideal.ofBits, Ideal.ieee, -EReal.coe_mul]; norm_num

/-- The activation: the maximum with (the word of) zero, or nothing. -/
def act (relu : Bool) (z : EReal) : EReal := if relu then max z (Ideal.ofBits .f32 0x00000000#32) else z

/-- Entry (p, q) of a layer's dense step. -/
def denseAt (relu : Bool) (mean h : Nodes.Idx → EReal) (wl wr : Wts.Idx → EReal) (b : Row.Idx → EReal)
    (p : Fin 50000) (q : Fin 128) : EReal :=
  act relu (((∑ k : Fin 128, mean (ix2 p k) * wl (ix2 k q)) + ∑ k : Fin 128, h (ix2 p k) * wr (ix2 k q)) + b (ix2 0 q))

/-- A layer's dense step on whole arrays. -/
def dense (relu : Bool) (mean h : Nodes.Idx → EReal) (wl wr : Wts.Idx → EReal) (b : Row.Idx → EReal) :
    Nodes.Idx → EReal :=
  fun i => denseAt relu mean h wl wr b (i 0) (i 1)

theorem dense_ix2 (relu : Bool) (mean h : Nodes.Idx → EReal) (wl wr : Wts.Idx → EReal) (b : Row.Idx → EReal)
    (p : Fin 50000) (q : Fin 128) : dense relu mean h wl wr b (ix2 p q) = denseAt relu mean h wl wr b p q := rfl

/-- `max(x, 1)` is at least one, so it is not zero — for every extended real `x`. -/
theorem max_one_ne_zero (x : EReal) : max x 1 ≠ 0 :=
  ne_of_gt (lt_of_lt_of_le zero_lt_one (le_max_right x 1))

/-- The product with the reciprocal of `max(x, 1)` is the quotient by it, at the infinities too: the divisor is not zero,
    so both sides are `s · (max(x, 1))⁻¹`. -/
theorem mul_recip_max_one (s x : EReal) :
    s * Ideal.div (Ideal.ofBits .f32 0x3F800000#32) (max x (Ideal.ofBits .f32 0x3F800000#32))
      = Ideal.div s (max x (Ideal.ofBits .f32 0x3F800000#32)) := by
  rw [one_word]
  have hc : max x 1 ≠ 0 := max_one_ne_zero x
  unfold Ideal.div
  rw [if_neg hc, if_neg hc, one_mul]

end Cert.Sage

end
-- ==== Proof.Block.lean ====
/-
  What the kernel body stores, read at one element of its [5000, 128] block, over the extended reals.

  The body loads a block of the neighbour mean and a block of the features (5000 rows each), the two transposed weight
  matrices and the bias row, multiplies (the changes of float format are the identity here, and a matrix product into a
  zero accumulator is the plain sum over the contracted axis), adds the two products, adds the bias row to every row, and
  on the first two layers takes the maximum with zero. Row r, column q of the stored block is therefore

      act ( (∑ₖ mean[r,k] · wl[k,q]  +  ∑ₖ h[r,k] · wr[k,q])  +  b[0,q] ).
-/
import proofs.«177692_j26731876451050_1_alg».proof.Proof.Gen.KernelIdeal.Skeleton
import proofs.«177692_j26731876451050_1_alg».proof.Proof.Sage
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The kernel's matrix product of a [5000, 128] block with a [128, 128] matrix into zeros: entry (r, q) is the sum over
    the 128 contracted positions. -/
theorem matmul_block {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The bias row spread over the block's rows: every row reads the row's entry of the same column. -/
theorem bias_block (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The first layer's stored block at (r, q). -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = Cert.Sage.act true (((∑ k : Fin 128, x0 (ix2 p k) * x2 (ix2 k q)) + ∑ k : Fin 128, x1 (ix2 p k) * x3 (ix2 k q)) + x4 (ix2 0 q)) := by
  unfold k0_pay1
  simp only [shapeCast_self]
  show max ((matmul (F := Ideal) dot_S5000x128_S128x128_S5000x128_1_0_0_1_n_n none _ _ _ (ix2 p q) + matmul (F := Ideal) dot_S5000x128_S128x128_S5000x128_1_0_0_1_n_n none _ _ _ (ix2 p q)) + broadcastTo S5000x128 x4 _ (ix2 p q)) _ = _
  rw [matmul_block, matmul_block, bias_block]
  rfl

/-- The second layer's stored block at (r, q). -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = Cert.Sage.act true (((∑ k : Fin 128, x0 (ix2 p k) * x2 (ix2 k q)) + ∑ k : Fin 128, x1 (ix2 p k) * x3 (ix2 k q)) + x4 (ix2 0 q)) := by
  unfold k1_pay1
  simp only [shapeCast_self]
  show max ((matmul (F := Ideal) dot_S5000x128_S128x128_S5000x128_1_0_0_1_n_n none _ _ _ (ix2 p q) + matmul (F := Ideal) dot_S5000x128_S128x128_S5000x128_1_0_0_1_n_n none _ _ _ (ix2 p q)) + broadcastTo S5000x128 x4 _ (ix2 p q)) _ = _
  rw [matmul_block, matmul_block, bias_block]
  rfl

/-- The last layer's stored block at (r, q): no maximum with zero. -/
theorem pay2_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = Cert.Sage.act false (((∑ k : Fin 128, x0 (ix2 p k) * x2 (ix2 k q)) + ∑ k : Fin 128, x1 (ix2 p k) * x3 (ix2 k q)) + x4 (ix2 0 q)) := by
  unfold k2_pay1
  simp only [shapeCast_self]
  show (matmul (F := Ideal) dot_S5000x128_S128x128_S5000x128_1_0_0_1_n_n none _ _ _ (ix2 p q) + matmul (F := Ideal) dot_S5000x128_S128x128_S5000x128_1_0_0_1_n_n none _ _ _ (ix2 p q)) + broadcastTo S5000x128 x4 _ (ix2 p q) = _
  rw [matmul_block, matmul_block, bias_block]
  rfl

end Cert.KernelIdeal.Hand

end
-- ==== Proof.Tile.lean ====
/-
  A stored block is a tile of the dense step.

  Grid point T of a layer's launch works on rows T·5000 … T·5000 + 4999. If the two row blocks it loaded are those rows
  of the neighbour-mean array and of the feature array, and the three small operands it loaded are the whole weight
  matrices and the whole bias row, then entry (r, q) of what it stores is entry (T·5000 + r, q) of the layer's dense
  step on the whole arrays: both are the same sums over the 128 features, the same bias entry, the same activation.
-/
import proofs.«177692_j26731876451050_1_alg».proof.Proof.Block

noncomputable section

namespace Cert.KernelIdeal.Hand

open Cert.KernelIdeal Idealize.ShloMosaic Idealize.ShloMosaic.ValueIdx

/-- The offset pair (0, 0) is the zero offset. -/
theorem hz : (![0, 0] : Fin 2 → Nat) = fun _ => 0 := funext fun a => by fin_cases a <;> rfl

/-- A block's entry, written over the loaded operands, is the dense step's entry at the array index the block's entry
    sits at: row T·5000 + r, same column. -/
theorem tile_is_dense (relu : Bool) (mean h : Cert.Sage.Nodes.Idx → EReal) (wl wr : Cert.Sage.Wts.Idx → EReal)
    (b : Cert.Sage.Row.Idx → EReal)
    (x0 x1 : Vec Ideal S5000x128 .f32) (x2 x3 : Vec Ideal S128x128 .f32) (x4 : Vec Ideal S1x128 .f32)
    (y : S5000x128.Idx) (i : S50000x128.Idx) (T : Nat)
    (hi0 : (i 0).val = T * 5000 + (y 0).val) (hi1 : (i 1).val = (y 1).val)
    (h0 : ∀ (r : Fin 5000) (k : Fin 128) (I : Fin 50000), I.val = T * 5000 + r.val → x0 (ix2 r k) = mean (ix2 I k))
    (h1 : ∀ (r : Fin 5000) (k : Fin 128) (I : Fin 50000), I.val = T * 5000 + r.val → x1 (ix2 r k) = h (ix2 I k))
    (h2 : ∀ j, x2 j = wl j) (h3 : ∀ j, x3 j = wr j) (h4 : ∀ j, x4 j = b j) :
    Cert.Sage.act relu (((∑ k : Fin 128, x0 (ix2 (y 0) k) * x2 (ix2 k (y 1))) + ∑ k : Fin 128, x1 (ix2 (y 0) k) * x3 (ix2 k (y 1))) + x4 (ix2 0 (y 1)))
      = Cert.Sage.dense relu mean h wl wr b i := by
  have e0 : ∀ k : Fin 128, x0 (ix2 (y 0) k) = mean (ix2 (i 0) k) := fun k => h0 (y 0) k (i 0) hi0
  have e1 : ∀ k : Fin 128, x1 (ix2 (y 0) k) = h (ix2 (i 0) k) := fun k => h1 (y 0) k (i 0) hi0
  have hq : (y 1 : Fin 128) = (i 1 : Fin 128) := Fin.ext hi1.symm
  unfold Cert.Sage.dense Cert.Sage.denseAt
  simp only [e0, e1, h2, h3, h4, hq]

/-- The first layer's stored block at any entry `y` of the block. -/
theorem pay0_at (x0 x1 : Vec Ideal S5000x128 .f32) (x2 x3 : Vec Ideal S128x128 .f32) (x4 : Vec Ideal S1x128 .f32) (y : S5000x128.Idx) :
    Cert.KernelIdeal.Gen.k0_pay1 (F := Ideal) x0 x1 x2 x3 x4 y
      = Cert.Sage.act true (((∑ k : Fin 128, x0 (ix2 (y 0) k) * x2 (ix2 k (y 1))) + ∑ k : Fin 128, x1 (ix2 (y 0) k) * x3 (ix2 k (y 1))) + x4 (ix2 0 (y 1))) := by
  obtain ⟨p, q, rfl⟩ : ∃ (p : Fin 5000) (q : Fin 128), y = ix2 p q := ⟨y 0, y 1, eq_ix2 y⟩
  exact pay0_apply x0 x1 x2 x3 x4 p q

/-- The second layer's stored block at any entry `y` of the block. -/
theorem pay1_at (x0 x1 : Vec Ideal S5000x128 .f32) (x2 x3 : Vec Ideal S128x128 .f32) (x4 : Vec Ideal S1x128 .f32) (y : S5000x128.Idx) :
    Cert.KernelIdeal.Gen.k1_pay1 (F := Ideal) x0 x1 x2 x3 x4 y
      = Cert.Sage.act true (((∑ k : Fin 128, x0 (ix2 (y 0) k) * x2 (ix2 k (y 1))) + ∑ k : Fin 128, x1 (ix2 (y 0) k) * x3 (ix2 k (y 1))) + x4 (ix2 0 (y 1))) := by
  obtain ⟨p, q, rfl⟩ : ∃ (p : Fin 5000) (q : Fin 128), y = ix2 p q := ⟨y 0, y 1, eq_ix2 y⟩
  exact pay1_apply x0 x1 x2 x3 x4 p q

/-- The last layer's stored block at any entry `y` of the block. -/
theorem pay2_at (x0 x1 : Vec Ideal S5000x128 .f32) (x2 x3 : Vec Ideal S128x128 .f32) (x4 : Vec Ideal S1x128 .f32) (y : S5000x128.Idx) :
    Cert.KernelIdeal.Gen.k2_pay1 (F := Ideal) x0 x1 x2 x3 x4 y
      = Cert.Sage.act false (((∑ k : Fin 128, x0 (ix2 (y 0) k) * x2 (ix2 k (y 1))) + ∑ k : Fin 128, x1 (ix2 (y 0) k) * x3 (ix2 k (y 1))) + x4 (ix2 0 (y 1))) := by
  obtain ⟨p, q, rfl⟩ : ∃ (p : Fin 5000) (q : Fin 128), y = ix2 p q := ⟨y 0, y 1, eq_ix2 y⟩
  exact pay2_apply x0 x1 x2 x3 x4 p q

end Cert.KernelIdeal.Hand

end
-- ==== Proof.Region0.lean ====
/-
  The first launch: what its output array holds when the launch is over, for ANY contents `V` the launch is entered from.

  The grid has ten points; point t loads rows 5000·t … 5000·t + 4999 of the neighbour-mean array and of the feature
  array, the whole of both weight matrices and of the bias row, and writes its stored block back to the same rows of the
  output array. So what point t writes back is block t of one whole-array function, the layer's dense step of the five
  arrays as the launch finds them; the ten blocks cover all 50000 rows; hence the output array ends holding that
  function.
-/
import proofs.«177692_j26731876451050_1_alg».proof.Proof.Gen.KernelIdeal.Frame
import proofs.«177692_j26731876451050_1_alg».proof.Proof.Tile

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer's dense step of the five arrays as the launch finds them. -/
abbrev layer0 (c : Dev nD) : S50000x128.Idx → EReal :=
  Cert.Sage.dense true (V c main_v24) (V c main_arg0) (V c main_v25) (V c main_v26) (V c main_v27)

/-- The block index maps, decided over the ten grid points: the two row-block operands move with the output's row block
    and stay in column block 0; the three small operands stay at block (0, 0); the output's row block is at most 9. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every one of the ten row blocks is some point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the layer's dense step. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts0 t
  funext j
  show k0_pay1 (F := Ideal) (iblk0 V c 0 t) (iblk0 V c 1 t) (iblk0 V c 2 t) (iblk0 V c 3 t) (iblk0 V c 4 t) j
    = layer0 V c (((cfg0.win 5).blk t).view.emb j)
  refine (pay0_at (iblk0 V c 0 t) (iblk0 V c 1 t) (iblk0 V c 2 t) (iblk0 V c 3 t) (iblk0 V c 4 t) j).trans ?_
  refine tile_is_dense true (V c main_v24) (V c main_arg0) (V c main_v25) (V c main_v26) (V c main_v27)
    (iblk0 V c 0 t) (iblk0 V c 1 t) (iblk0 V c 2 t) (iblk0 V c 3 t) (iblk0 V c 4 t)
    j (((cfg0.win 5).blk t).view.emb j) (win0_5.index t (0 : Fin 2)) ?_ ?_ ?_ ?_ ?_ ?_ ?_
  · show win0_5.index t (0 : Fin 2) * 5000 + 1 * (j 0).val = _
    omega
  · show win0_5.index t (1 : Fin 2) * 128 + 1 * (j 1).val = _
    rw [e10]; omega
  · intro r k I hI
    show V c main_v24 (((cfg0.win 0).blk t).view.emb (ix2 r k)) = V c main_v24 (ix2 I k)
    refine congrArg (V c main_v24) (funext fun a => Fin.ext ?_)
    match a with
    | ⟨0, _⟩ => show win0_0.index t (0 : Fin 2) * 5000 + 1 * r.val = I.val; rw [e0, hI]; omega
    | ⟨1, _⟩ => show win0_0.index t (1 : Fin 2) * 128 + 1 * k.val = k.val; rw [e1]; omega
  · intro r k I hI
    show V c main_arg0 (((cfg0.win 1).blk t).view.emb (ix2 r k)) = V c main_arg0 (ix2 I k)
    refine congrArg (V c main_arg0) (funext fun a => Fin.ext ?_)
    match a with
    | ⟨0, _⟩ => show win0_1.index t (0 : Fin 2) * 5000 + 1 * r.val = I.val; rw [e2, hI]; omega
    | ⟨1, _⟩ => show win0_1.index t (1 : Fin 2) * 128 + 1 * k.val = k.val; rw [e3]; omega
  · intro y
    show V c main_v25 (((cfg0.win 2).blk t).view.emb y) = V c main_v25 y
    refine congrArg (V c main_v25) (funext fun a => Fin.ext ?_)
    match a with
    | ⟨0, _⟩ => show win0_2.index t (0 : Fin 2) * 128 + 1 * (y 0).val = (y 0).val; rw [e4]; omega
    | ⟨1, _⟩ => show win0_2.index t (1 : Fin 2) * 128 + 1 * (y 1).val = (y 1).val; rw [e5]; omega
  · intro y
    show V c main_v26 (((cfg0.win 3).blk t).view.emb y) = V c main_v26 y
    refine congrArg (V c main_v26) (funext fun a => Fin.ext ?_)
    match a with
    | ⟨0, _⟩ => show win0_3.index t (0 : Fin 2) * 128 + 1 * (y 0).val = (y 0).val; rw [e6]; omega
    | ⟨1, _⟩ => show win0_3.index t (1 : Fin 2) * 128 + 1 * (y 1).val = (y 1).val; rw [e7]; omega
  · intro y
    show V c main_v27 (((cfg0.win 4).blk t).view.emb y) = V c main_v27 y
    refine congrArg (V c main_v27) (funext fun a => Fin.ext ?_)
    match a with
    | ⟨0, _⟩ => show win0_4.index t (0 : Fin 2) * 1 + 1 * (y 0).val = (y 0).val; rw [e8]; omega
    | ⟨1, _⟩ => show win0_4.index t (1 : Fin 2) * 128 + 1 * (y 1).val = (y 1).val; rw [e9]; omega

/-- An index of the output array is in point `t`'s block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every index of the output array is in the block of the point whose row block is the row divided by 5000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the launch is the layer's dense step of the arrays the launch was entered with. -/
theorem final0 (c : Dev nD) : (dat0 V c).arrAt 5 cfg0.N = layer0 V c :=
  (dat0 V c).arrAt_eq_of_cover 5 (layer0 V c) (fun t _ => flushed0 V c t) (cover0)

end Cert.KernelIdeal.Hand

end
-- ==== Proof.Region1.lean ====
/-
  The second launch: what its output array holds when the launch is over, for ANY contents `V` the launch is entered from.

  The grid has ten points; point t loads rows 5000·t … 5000·t + 4999 of the neighbour-mean array and of the feature
  array, the whole of both weight matrices and of the bias row, and writes its stored block back to the same rows of the
  output array. So what point t writes back is block t of one whole-array function, the layer's dense step of the five
  arrays as the launch finds them; the ten blocks cover all 50000 rows; hence the output array ends holding that
  function.
-/
import proofs.«177692_j26731876451050_1_alg».proof.Proof.Gen.KernelIdeal.Frame
import proofs.«177692_j26731876451050_1_alg».proof.Proof.Tile

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer's dense step of the five arrays as the launch finds them. -/
abbrev layer1 (c : Dev nD) : S50000x128.Idx → EReal :=
  Cert.Sage.dense true (V c main_v41) (V c main_v28) (V c main_v42) (V c main_v43) (V c main_v44)

/-- The block index maps, decided over the ten grid points: the two row-block operands move with the output's row block
    and stay in column block 0; the three small operands stay at block (0, 0); the output's row block is at most 9. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every one of the ten row blocks is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the layer's dense step. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts1 t
  funext j
  show k1_pay1 (F := Ideal) (iblk1 V c 0 t) (iblk1 V c 1 t) (iblk1 V c 2 t) (iblk1 V c 3 t) (iblk1 V c 4 t) j
    = layer1 V c (((cfg1.win 5).blk t).view.emb j)
  refine (pay1_at (iblk1 V c 0 t) (iblk1 V c 1 t) (iblk1 V c 2 t) (iblk1 V c 3 t) (iblk1 V c 4 t) j).trans ?_
  refine tile_is_dense true (V c main_v41) (V c main_v28) (V c main_v42) (V c main_v43) (V c main_v44)
    (iblk1 V c 0 t) (iblk1 V c 1 t) (iblk1 V c 2 t) (iblk1 V c 3 t) (iblk1 V c 4 t)
    j (((cfg1.win 5).blk t).view.emb j) (win1_5.index t (0 : Fin 2)) ?_ ?_ ?_ ?_ ?_ ?_ ?_
  · show win1_5.index t (0 : Fin 2) * 5000 + 1 * (j 0).val = _
    omega
  · show win1_5.index t (1 : Fin 2) * 128 + 1 * (j 1).val = _
    rw [e10]; omega
  · intro r k I hI
    show V c main_v41 (((cfg1.win 0).blk t).view.emb (ix2 r k)) = V c main_v41 (ix2 I k)
    refine congrArg (V c main_v41) (funext fun a => Fin.ext ?_)
    match a with
    | ⟨0, _⟩ => show win1_0.index t (0 : Fin 2) * 5000 + 1 * r.val = I.val; rw [e0, hI]; omega
    | ⟨1, _⟩ => show win1_0.index t (1 : Fin 2) * 128 + 1 * k.val = k.val; rw [e1]; omega
  · intro r k I hI
    show V c main_v28 (((cfg1.win 1).blk t).view.emb (ix2 r k)) = V c main_v28 (ix2 I k)
    refine congrArg (V c main_v28) (funext fun a => Fin.ext ?_)
    match a with
    | ⟨0, _⟩ => show win1_1.index t (0 : Fin 2) * 5000 + 1 * r.val = I.val; rw [e2, hI]; omega
    | ⟨1, _⟩ => show win1_1.index t (1 : Fin 2) * 128 + 1 * k.val = k.val; rw [e3]; omega
  · intro y
    show V c main_v42 (((cfg1.win 2).blk t).view.emb y) = V c main_v42 y
    refine congrArg (V c main_v42) (funext fun a => Fin.ext ?_)
    match a with
    | ⟨0, _⟩ => show win1_2.index t (0 : Fin 2) * 128 + 1 * (y 0).val = (y 0).val; rw [e4]; omega
    | ⟨1, _⟩ => show win1_2.index t (1 : Fin 2) * 128 + 1 * (y 1).val = (y 1).val; rw [e5]; omega
  · intro y
    show V c main_v43 (((cfg1.win 3).blk t).view.emb y) = V c main_v43 y
    refine congrArg (V c main_v43) (funext fun a => Fin.ext ?_)
    match a with
    | ⟨0, _⟩ => show win1_3.index t (0 : Fin 2) * 128 + 1 * (y 0).val = (y 0).val; rw [e6]; omega
    | ⟨1, _⟩ => show win1_3.index t (1 : Fin 2) * 128 + 1 * (y 1).val = (y 1).val; rw [e7]; omega
  · intro y
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; rw [e8]; omega
    | ⟨1, _⟩ => show win1_4.index t (1 : Fin 2) * 128 + 1 * (y 1).val = (y 1).val; rw [e9]; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the output array is in the block of the point whose row block is the row divided by 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the launch is the layer's dense step of the arrays the launch was entered with. -/
theorem final1 (c : Dev nD) : (dat1 V c).arrAt 5 cfg1.N = layer1 V c :=
  (dat1 V c).arrAt_eq_of_cover 5 (layer1 V c) (fun t _ => flushed1 V c t) (cover1)

end Cert.KernelIdeal.Hand

end
-- ==== Proof.Region2.lean ====
/-
  The third launch: what its output array holds when the launch is over, for ANY contents `V` the launch is entered from.

  The grid has ten points; point t loads rows 5000·t … 5000·t + 4999 of the neighbour-mean array and of the feature
  array, the whole of both weight matrices and of the bias row, and writes its stored block back to the same rows of the
  output array. So what point t writes back is block t of one whole-array function, the layer's dense step of the five
  arrays as the launch finds them; the ten blocks cover all 50000 rows; hence the output array ends holding that
  function.
-/
import proofs.«177692_j26731876451050_1_alg».proof.Proof.Gen.KernelIdeal.Frame
import proofs.«177692_j26731876451050_1_alg».proof.Proof.Tile

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer's dense step of the five arrays as the launch finds them. -/
abbrev layer2 (c : Dev nD) : S50000x128.Idx → EReal :=
  Cert.Sage.dense false (V c main_v58) (V c main_v45) (V c main_v59) (V c main_v60) (V c main_v61)

/-- The block index maps, decided over the ten grid points: the two row-block operands move with the output's row block
    and stay in column block 0; the three small operands stay at block (0, 0); the output's row block is at most 9. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every one of the ten row blocks is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the layer's dense step. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e0, e1, e2, e3, e4, e5, e6, e7, e8, e9, e10, e11⟩ := idx_facts2 t
  funext j
  show k2_pay1 (F := Ideal) (iblk2 V c 0 t) (iblk2 V c 1 t) (iblk2 V c 2 t) (iblk2 V c 3 t) (iblk2 V c 4 t) j
    = layer2 V c (((cfg2.win 5).blk t).view.emb j)
  refine (pay2_at (iblk2 V c 0 t) (iblk2 V c 1 t) (iblk2 V c 2 t) (iblk2 V c 3 t) (iblk2 V c 4 t) j).trans ?_
  refine tile_is_dense false (V c main_v58) (V c main_v45) (V c main_v59) (V c main_v60) (V c main_v61)
    (iblk2 V c 0 t) (iblk2 V c 1 t) (iblk2 V c 2 t) (iblk2 V c 3 t) (iblk2 V c 4 t)
    j (((cfg2.win 5).blk t).view.emb j) (win2_5.index t (0 : Fin 2)) ?_ ?_ ?_ ?_ ?_ ?_ ?_
  · show win2_5.index t (0 : Fin 2) * 5000 + 1 * (j 0).val = _
    omega
  · show win2_5.index t (1 : Fin 2) * 128 + 1 * (j 1).val = _
    rw [e10]; omega
  · intro r k I hI
    show V c main_v58 (((cfg2.win 0).blk t).view.emb (ix2 r k)) = V c main_v58 (ix2 I k)
    refine congrArg (V c main_v58) (funext fun a => Fin.ext ?_)
    match a with
    | ⟨0, _⟩ => show win2_0.index t (0 : Fin 2) * 5000 + 1 * r.val = I.val; rw [e0, hI]; omega
    | ⟨1, _⟩ => show win2_0.index t (1 : Fin 2) * 128 + 1 * k.val = k.val; rw [e1]; omega
  · intro r k I hI
    show V c main_v45 (((cfg2.win 1).blk t).view.emb (ix2 r k)) = V c main_v45 (ix2 I k)
    refine congrArg (V c main_v45) (funext fun a => Fin.ext ?_)
    match a with
    | ⟨0, _⟩ => show win2_1.index t (0 : Fin 2) * 5000 + 1 * r.val = I.val; rw [e2, hI]; omega
    | ⟨1, _⟩ => show win2_1.index t (1 : Fin 2) * 128 + 1 * k.val = k.val; rw [e3]; omega
  · intro y
    show V c main_v59 (((cfg2.win 2).blk t).view.emb y) = V c main_v59 y
    refine congrArg (V c main_v59) (funext fun a => Fin.ext ?_)
    match a with
    | ⟨0, _⟩ => show win2_2.index t (0 : Fin 2) * 128 + 1 * (y 0).val = (y 0).val; rw [e4]; omega
    | ⟨1, _⟩ => show win2_2.index t (1 : Fin 2) * 128 + 1 * (y 1).val = (y 1).val; rw [e5]; omega
  · intro y
    show V c main_v60 (((cfg2.win 3).blk t).view.emb y) = V c main_v60 y
    refine congrArg (V c main_v60) (funext fun a => Fin.ext ?_)
    match a with
    | ⟨0, _⟩ => show win2_3.index t (0 : Fin 2) * 128 + 1 * (y 0).val = (y 0).val; rw [e6]; omega
    | ⟨1, _⟩ => show win2_3.index t (1 : Fin 2) * 128 + 1 * (y 1).val = (y 1).val; rw [e7]; omega
  · intro y
    show V c main_v61 (((cfg2.win 4).blk t).view.emb y) = V c main_v61 y
    refine congrArg (V c main_v61) (funext fun a => Fin.ext ?_)
    match a with
    | ⟨0, _⟩ => show win2_4.index t (0 : Fin 2) * 1 + 1 * (y 0).val = (y 0).val; rw [e8]; omega
    | ⟨1, _⟩ => show win2_4.index t (1 : Fin 2) * 128 + 1 * (y 1).val = (y 1).val; rw [e9]; omega

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62).slice (win2_5.rect t)).set ↔ _
  rw [View.set_slice_whole, Rect.mem_set_unit]
  exact Iff.rfl

/-- Every index of the output array is in the block of the point whose row block is the row divided by 5000. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the launch is the layer's dense step of the arrays the launch was entered with. -/
theorem final2 (c : Dev nD) : (dat2 V c).arrAt 5 cfg2.N = layer2 V c :=
  (dat2 V c).arrAt_eq_of_cover 5 (layer2 V c) (fun t _ => flushed2 V c t) (cover2)

end Cert.KernelIdeal.Hand

end
-- ==== Proof.HostTerms.lean ====
/-
  The host-side pieces of one layer of the kernel program, each named once.

  Every layer gathers the feature rows of the edges' source nodes, adds them up per destination node, and scales each
  node's sum by one over its (clamped) in-degree; the weights are transposed and the bias is made a row. The gather and
  the scatter are never opened in this certificate: both programs apply the same two operations to the same edge list,
  so they stay names.
-/
import proofs.«177692_j26731876451050_1_alg».proof.Proof.Gen.KernelIdeal

noncomputable section

namespace Cert.KernelIdeal.Hand

open Cert.KernelIdeal Cert.KernelIdeal.Gen Idealize.ShloMosaic

variable {F : FTy → Type} [FloatOps F]

/-- The edges' source nodes: row 0 of the edge list, as a vector. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list, as a vector. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Per node, the number of edges arriving at it (ones scattered onto zeros by destination), at least one. -/
def cmaxOf (dst : (⟨S800000, .i32⟩ : BufTy).Contents (Elt F)) : (⟨S50000, .f32⟩ : BufTy).Contents (Elt F) :=
  maximumf (Host.scatterAdd scatter_S50000_S800000x1_S800000_n_0_0_1 (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- Per node, one over that count. -/
def invOf (dst : (⟨S800000, .i32⟩ : BufTy).Contents (Elt F)) : (⟨S50000, .f32⟩ : BufTy).Contents (Elt F) :=
  Host.divf (broadcastInDim S50000 ![] bcast_S_S50000 (constant S_ .f32 0x3F800000#32)) (cmaxOf dst)

/-- Per node, the sum of its in-neighbours' feature rows: the rows gathered by source (a negative index counted from
    the end), scatter-added onto zeros by destination. -/
def summedOf (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A per-node number spread along its node's row. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The neighbour mean as the kernel program forms it: the sum times one over the count. -/
def meanOf (h : (⟨S50000x128, .f32⟩ : BufTy).Contents (Elt F)) (src dst : (⟨S800000, .i32⟩ : BufTy).Contents (Elt F))
    (inv : (⟨S50000, .f32⟩ : BufTy).Contents (Elt F)) : (⟨S50000x128, .f32⟩ : BufTy).Contents (Elt F) :=
  mulf (summedOf h src dst) (spread inv)

/-- A weight matrix transposed. -/
def trOf (w : (⟨S128x128, .f32⟩ : BufTy).Contents (Elt F)) : (⟨S128x128, .f32⟩ : BufTy).Contents (Elt F) :=
  transpose S128x128 [1, 0] w transposes_S128x128_S128x128_1_0

/-- A bias vector as a one-row matrix. -/
def rowOf (b : (⟨S128, .f32⟩ : BufTy).Contents (Elt F)) : (⟨S1x128, .f32⟩ : BufTy).Contents (Elt F) :=
  shapeCast _ b shapeCasts_S128_S1x128

end Cert.KernelIdeal.Hand

end
-- ==== Proof.Stretch0.lean ====
/-
  What the first launch is entered with.

  The first stretch of host operations splits the edge list into source and destination rows, counts the edges arriving
  at each node and takes one over the clamped count, forms the neighbour mean of the input features, transposes the first
  layer's two weight matrices and makes its bias a row. Read at the five arrays the first launch stages, and at the three
  buffers the later stretches read again, the contents after the stretch are these terms of the launch memory.
-/
import proofs.«177692_j26731876451050_1_alg».proof.Proof.Gen.KernelIdeal.Frame
import proofs.«177692_j26731876451050_1_alg».proof.Proof.HostTerms

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The source row. -/
theorem W1_src (c : Dev nD) : W1 m ρ c (Proc.devRef .tc main_v1) = srcOf (m ((c : Thread nD τ).loc main_arg1)) := by
  show StableHlo.after hostOps0 (W0 m ρ c) (Proc.devRef .tc main_v1) = _
  after_results_simp <;> rfl

/-- The destination row. -/
theorem W1_dst (c : Dev nD) : W1 m ρ c (Proc.devRef .tc main_v3) = dstOf (m ((c : Thread nD τ).loc main_arg1)) := by
  show StableHlo.after hostOps0 (W0 m ρ c) (Proc.devRef .tc main_v3) = _
  after_results_simp <;> rfl

/-- One over the clamped in-degree. -/
theorem W1_inv (c : Dev nD) : W1 m ρ c (Proc.devRef .tc main_v11) = invOf (dstOf (m ((c : Thread nD τ).loc main_arg1))) := by
  show StableHlo.after hostOps0 (W0 m ρ c) (Proc.devRef .tc main_v11) = _
  after_results_simp <;> rfl

/-- The neighbour mean of the input features. -/
theorem W1_mean (c : Dev nD) : W1 m ρ c (Proc.devRef .tc main_v24)
    = meanOf (m ((c : Thread nD τ).loc main_arg0)) (srcOf (m ((c : Thread nD τ).loc main_arg1))) (dstOf (m ((c : Thread nD τ).loc main_arg1))) (invOf (dstOf (m ((c : Thread nD τ).loc main_arg1)))) := by
  show StableHlo.after hostOps0 (W0 m ρ c) (Proc.devRef .tc main_v24) = _
  after_results_simp <;> rfl

/-- The input features are not written. -/
theorem W1_x (c : Dev nD) : W1 m ρ c (Proc.devRef .tc main_arg0) = (m ((c : Thread nD τ).loc main_arg0)) := by
  show StableHlo.after hostOps0 (W0 m ρ c) (Proc.devRef .tc main_arg0) = _
  after_results_simp <;> rfl

/-- The first layer's neighbour weights, transposed. -/
theorem W1_wl (c : Dev nD) : W1 m ρ c (Proc.devRef .tc main_v25) = trOf (m ((c : Thread nD τ).loc main_arg2)) := by
  show StableHlo.after hostOps0 (W0 m ρ c) (Proc.devRef .tc main_v25) = _
  after_results_simp <;> rfl

/-- The first layer's own-feature weights, transposed. -/
theorem W1_wr (c : Dev nD) : W1 m ρ c (Proc.devRef .tc main_v26) = trOf (m ((c : Thread nD τ).loc main_arg4)) := by
  show StableHlo.after hostOps0 (W0 m ρ c) (Proc.devRef .tc main_v26) = _
  after_results_simp <;> rfl

/-- The first layer's bias as a row. -/
theorem W1_b (c : Dev nD) : W1 m ρ c (Proc.devRef .tc main_v27) = rowOf (m ((c : Thread nD τ).loc main_arg3)) := by
  show StableHlo.after hostOps0 (W0 m ρ c) (Proc.devRef .tc main_v27) = _
  after_results_simp <;> rfl

/-- Argument 5 (a later layer's parameter) is not written by the first stretch. -/
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

/-- Argument 6 (a later layer's parameter) is not written by the first stretch. -/
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

/-- Argument 7 (a later layer's parameter) is not written by the first stretch. -/
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

/-- Argument 8 (a later layer's parameter) is not written by the first stretch. -/
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

/-- Argument 9 (a later layer's parameter) is not written by the first stretch. -/
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

/-- Argument 10 (a later layer's parameter) is not written by the first stretch. -/
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

end Cert.KernelIdeal.Hand

end
-- ==== Proof.Stretch1.lean ====
/-
  What the second launch is entered with, in terms of the contents before its stretch of host operations.

  The stretch gathers and sums the previous layer's output per destination node and scales by one over the in-degree
  (all three index and count buffers were made by the first stretch and are read again here), transposes this layer's
  weight matrices and makes its bias a row. It writes none of the buffers it reads.
-/
import proofs.«177692_j26731876451050_1_alg».proof.Proof.Gen.KernelIdeal.Frame
import proofs.«177692_j26731876451050_1_alg».proof.Proof.HostTerms

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The neighbour mean of the previous layer's output. -/
theorem W3_mean (c : Dev nD) : W3 m ρ c (Proc.devRef .tc main_v41)
    = meanOf (W2 m ρ c (Proc.devRef .tc main_v28)) (W2 m ρ c (Proc.devRef .tc main_v1)) (W2 m ρ c (Proc.devRef .tc main_v3)) (W2 m ρ c (Proc.devRef .tc main_v11)) := by
  show StableHlo.after hostOps1 (W2 m ρ c) (Proc.devRef .tc main_v41) = _
  after_results_simp <;> rfl

/-- The previous layer's output is not written. -/
theorem W3_h (c : Dev nD) : W3 m ρ c (Proc.devRef .tc main_v28) = W2 m ρ c (Proc.devRef .tc main_v28) := by
  show StableHlo.after hostOps1 (W2 m ρ c) (Proc.devRef .tc main_v28) = _
  after_results_simp <;> rfl

/-- This layer's neighbour weights, transposed. -/
theorem W3_wl (c : Dev nD) : W3 m ρ c (Proc.devRef .tc main_v42) = trOf (W2 m ρ c (Proc.devRef .tc main_arg5)) := by
  show StableHlo.after hostOps1 (W2 m ρ c) (Proc.devRef .tc main_v42) = _
  after_results_simp <;> rfl

/-- This layer's own-feature weights, transposed. -/
theorem W3_wr (c : Dev nD) : W3 m ρ c (Proc.devRef .tc main_v43) = trOf (W2 m ρ c (Proc.devRef .tc main_arg7)) := by
  show StableHlo.after hostOps1 (W2 m ρ c) (Proc.devRef .tc main_v43) = _
  after_results_simp <;> rfl

/-- This layer's bias as a row. -/
theorem W3_b (c : Dev nD) : W3 m ρ c (Proc.devRef .tc main_v44) = rowOf (W2 m ρ c (Proc.devRef .tc main_arg6)) := by
  show StableHlo.after hostOps1 (W2 m ρ c) (Proc.devRef .tc main_v44) = _
  after_results_simp <;> rfl

/-- `main_v1` is carried through unchanged. -/
theorem W3_keep_main_v1 (c : Dev nD) : W3 m ρ c (Proc.devRef .tc main_v1) = W2 m ρ c (Proc.devRef .tc main_v1) := by
  show StableHlo.after hostOps1 (W2 m ρ c) (Proc.devRef .tc main_v1) = _
  after_results_simp <;> rfl

/-- `main_v3` is carried through unchanged. -/
theorem W3_keep_main_v3 (c : Dev nD) : W3 m ρ c (Proc.devRef .tc main_v3) = W2 m ρ c (Proc.devRef .tc main_v3) := by
  show StableHlo.after hostOps1 (W2 m ρ c) (Proc.devRef .tc main_v3) = _
  after_results_simp <;> rfl

/-- `main_v11` is carried through unchanged. -/
theorem W3_keep_main_v11 (c : Dev nD) : W3 m ρ c (Proc.devRef .tc main_v11) = W2 m ρ c (Proc.devRef .tc main_v11) := by
  show StableHlo.after hostOps1 (W2 m ρ c) (Proc.devRef .tc main_v11) = _
  after_results_simp <;> rfl

/-- `main_arg8` is carried through unchanged. -/
theorem W3_keep_main_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl

/-- `main_arg9` is carried through unchanged. -/
theorem W3_keep_main_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl

/-- `main_arg10` is carried through unchanged. -/
theorem W3_keep_main_arg10 (c : Dev nD) : W3 m ρ c (Proc.devRef .tc main_arg10) = W2 m ρ c (Proc.devRef .tc main_arg10) := by
  show StableHlo.after hostOps1 (W2 m ρ c) (Proc.devRef .tc main_arg10) = _
  after_results_simp <;> rfl

end Cert.KernelIdeal.Hand

end
-- ==== Proof.Stretch2.lean ====
/-
  What the third launch is entered with, in terms of the contents before its stretch of host operations.

  The stretch gathers and sums the previous layer's output per destination node and scales by one over the in-degree
  (all three index and count buffers were made by the first stretch and are read again here), transposes this layer's
  weight matrices and makes its bias a row. It writes none of the buffers it reads.
-/
import proofs.«177692_j26731876451050_1_alg».proof.Proof.Gen.KernelIdeal.Frame
import proofs.«177692_j26731876451050_1_alg».proof.Proof.HostTerms

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The neighbour mean of the previous layer's output. -/
theorem W5_mean (c : Dev nD) : W5 m ρ c (Proc.devRef .tc main_v58)
    = meanOf (W4 m ρ c (Proc.devRef .tc main_v45)) (W4 m ρ c (Proc.devRef .tc main_v1)) (W4 m ρ c (Proc.devRef .tc main_v3)) (W4 m ρ c (Proc.devRef .tc main_v11)) := by
  show StableHlo.after hostOps2 (W4 m ρ c) (Proc.devRef .tc main_v58) = _
  after_results_simp <;> rfl

/-- The previous layer's output is not written. -/
theorem W5_h (c : Dev nD) : W5 m ρ c (Proc.devRef .tc main_v45) = W4 m ρ c (Proc.devRef .tc main_v45) := by
  show StableHlo.after hostOps2 (W4 m ρ c) (Proc.devRef .tc main_v45) = _
  after_results_simp <;> rfl

/-- This layer's neighbour weights, transposed. -/
theorem W5_wl (c : Dev nD) : W5 m ρ c (Proc.devRef .tc main_v59) = trOf (W4 m ρ c (Proc.devRef .tc main_arg8)) := by
  show StableHlo.after hostOps2 (W4 m ρ c) (Proc.devRef .tc main_v59) = _
  after_results_simp <;> rfl

/-- This layer's own-feature weights, transposed. -/
theorem W5_wr (c : Dev nD) : W5 m ρ c (Proc.devRef .tc main_v60) = trOf (W4 m ρ c (Proc.devRef .tc main_arg10)) := by
  show StableHlo.after hostOps2 (W4 m ρ c) (Proc.devRef .tc main_v60) = _
  after_results_simp <;> rfl

/-- This layer's bias as a row. -/
theorem W5_b (c : Dev nD) : W5 m ρ c (Proc.devRef .tc main_v61) = rowOf (W4 m ρ c (Proc.devRef .tc main_arg9)) := by
  show StableHlo.after hostOps2 (W4 m ρ c) (Proc.devRef .tc main_v61) = _
  after_results_simp <;> rfl

end Cert.KernelIdeal.Hand

end
-- ==== Proof.Chain.lean ====
/-
  The idealized kernel's result is three dense layers of its arguments.

  Write x for the input features, e for the edge list, and (Wlᵢ, blᵢ, Wrᵢ) for layer i's parameters. One kernel layer of
  features h is the dense step of: the neighbour mean of h along e (sum times one over the clamped in-degree), h itself,
  the two transposed weight matrices and the bias row. The first launch's output array is the first layer of x (with the
  maximum with zero); the second stretch of host operations forms the neighbour mean of THAT array, reading the source,
  destination and reciprocal-count buffers the first stretch made, so the second launch's output is the second layer of
  the first; likewise the third, without the maximum. The result buffer ends at the third.
-/
import proofs.«177692_j26731876451050_1_alg».proof.Proof.KernelRun
import proofs.«177692_j26731876451050_1_alg».proof.Proof.Region0
import proofs.«177692_j26731876451050_1_alg».proof.Proof.Region1
import proofs.«177692_j26731876451050_1_alg».proof.Proof.Region2
import proofs.«177692_j26731876451050_1_alg».proof.Proof.Stretch0
import proofs.«177692_j26731876451050_1_alg».proof.Proof.Stretch1
import proofs.«177692_j26731876451050_1_alg».proof.Proof.Stretch2

set_option maxRecDepth 16384

noncomputable section

namespace Cert.KernelIdeal.Hand

open Cert.KernelIdeal Cert.KernelIdeal.Gen
open Idealize.ShloMosaic Idealize.ShloMosaic.TcCoe Idealize.SL.Sem

/-- One kernel layer on whole arrays: the dense step of the neighbour mean of `h` along the edge list `e`, of `h`, and
    of the layer's parameters laid out as the launch stages them. -/
def layerK (relu : Bool) (h : (⟨S50000x128, .f32⟩ : BufTy).Contents (Elt Ideal)) (e : (⟨S2x800000, .i32⟩ : BufTy).Contents (Elt Ideal))
    (wl : (⟨S128x128, .f32⟩ : BufTy).Contents (Elt Ideal)) (bl : (⟨S128, .f32⟩ : BufTy).Contents (Elt Ideal))
    (wr : (⟨S128x128, .f32⟩ : BufTy).Contents (Elt Ideal)) : (⟨S50000x128, .f32⟩ : BufTy).Contents (Elt Ideal) :=
  Cert.Sage.dense relu (meanOf h (srcOf e) (dstOf e) (invOf (dstOf e))) h (trOf wl) (trOf wr) (rowOf bl)

variable (m : (ℓ : Loc nD τ sig) → Buf (Elt Ideal) ℓ) (ρ : Dev nD → PrngReg)

/-- The first layer of the input features. -/
def out1 (c : Dev nD) : (⟨S50000x128, .f32⟩ : BufTy).Contents (Elt Ideal) :=
  layerK true (m ((c : Thread nD τ).loc main_arg0)) (m ((c : Thread nD τ).loc main_arg1)) (m ((c : Thread nD τ).loc main_arg2)) (m ((c : Thread nD τ).loc main_arg3)) (m ((c : Thread nD τ).loc main_arg4))
/-- The second layer, of the first. -/
def out2 (c : Dev nD) : (⟨S50000x128, .f32⟩ : BufTy).Contents (Elt Ideal) :=
  layerK true (out1 m c) (m ((c : Thread nD τ).loc main_arg1)) (m ((c : Thread nD τ).loc main_arg5)) (m ((c : Thread nD τ).loc main_arg6)) (m ((c : Thread nD τ).loc main_arg7))
/-- The third layer, of the second, without the maximum with zero. -/
def out3 (c : Dev nD) : (⟨S50000x128, .f32⟩ : BufTy).Contents (Elt Ideal) :=
  layerK false (out2 m c) (m ((c : Thread nD τ).loc main_arg1)) (m ((c : Thread nD τ).loc main_arg8)) (m ((c : Thread nD τ).loc main_arg9)) (m ((c : Thread nD τ).loc main_arg10))

/-- After the first launch its output array holds the first layer. -/
theorem W2_out (c : Dev nD) : W2 m ρ c (Proc.devRef .tc main_v28) = out1 m c := by
  refine (W2_arr m ρ c 5).trans ((final0 (V1 m ρ) c).trans ?_)
  show Cert.Sage.dense true (W1 m ρ c (Proc.devRef .tc main_v24)) (W1 m ρ c (Proc.devRef .tc main_arg0))
    (W1 m ρ c (Proc.devRef .tc main_v25)) (W1 m ρ c (Proc.devRef .tc main_v26)) (W1 m ρ c (Proc.devRef .tc main_v27)) = _
  rw [W1_mean, W1_x, W1_wl, W1_wr, W1_b]
  rfl

/-- After the second launch its output array holds the second layer. -/
theorem W4_out (c : Dev nD) : W4 m ρ c (Proc.devRef .tc main_v45) = out2 m c := by
  refine (W4_arr m ρ c 5).trans ((final1 (V3 m ρ) c).trans ?_)
  show Cert.Sage.dense true (W3 m ρ c (Proc.devRef .tc main_v41)) (W3 m ρ c (Proc.devRef .tc main_v28))
    (W3 m ρ c (Proc.devRef .tc main_v42)) (W3 m ρ c (Proc.devRef .tc main_v43)) (W3 m ρ c (Proc.devRef .tc main_v44)) = _
  rw [W3_mean, W3_h, W3_wl, W3_wr, W3_b, W2_out,
    W2_of_ne m ρ c main_v1 (by decide), W2_of_ne m ρ c main_v3 (by decide), W2_of_ne m ρ c main_v11 (by decide),
    W2_of_ne m ρ c main_arg5 (by decide), W2_of_ne m ρ c main_arg6 (by decide), W2_of_ne m ρ c main_arg7 (by decide),
    W1_src, W1_dst, W1_inv, W1_arg5, W1_arg6, W1_arg7]
  rfl

/-- After the third launch its output array, the program's result, holds the third layer. -/
theorem W6_out (c : Dev nD) : W6 m ρ c (Proc.devRef .tc main_v62) = out3 m c := by
  refine (W6_arr m ρ c 5).trans ((final2 (V5 m ρ) c).trans ?_)
  show Cert.Sage.dense false (W5 m ρ c (Proc.devRef .tc main_v58)) (W5 m ρ c (Proc.devRef .tc main_v45))
    (W5 m ρ c (Proc.devRef .tc main_v59)) (W5 m ρ c (Proc.devRef .tc main_v60)) (W5 m ρ c (Proc.devRef .tc main_v61)) = _
  rw [W5_mean, W5_h, W5_wl, W5_wr, W5_b, W4_out,
    W4_of_ne m ρ c main_v1 (by decide), W4_of_ne m ρ c main_v3 (by decide), W4_of_ne m ρ c main_v11 (by decide),
    W4_of_ne m ρ c main_arg8 (by decide), W4_of_ne m ρ c main_arg9 (by decide), W4_of_ne m ρ c main_arg10 (by decide),
    W3_keep_main_v1, W3_keep_main_v3, W3_keep_main_v11, W3_keep_main_arg8, W3_keep_main_arg9, W3_keep_main_arg10,
    W2_of_ne m ρ c main_v1 (by decide), W2_of_ne m ρ c main_v3 (by decide), W2_of_ne m ρ c main_v11 (by decide),
    W2_of_ne m ρ c main_arg8 (by decide), W2_of_ne m ρ c main_arg9 (by decide), W2_of_ne m ρ c main_arg10 (by decide),
    W1_src, W1_dst, W1_inv, W1_arg8, W1_arg9, W1_arg10]
  rfl

/-- The idealized kernel's run: the result array ends at the third layer, the arguments as launched. -/
theorem run_value : θ_run defs (onTc (τ := τ) (main (F := Ideal))) ⟨m, fun _ => 0, ρ⟩ (fun r => ∀ c : Dev nD,
      r.2.mem ((c.tc : Thread nD τ).loc main_v62) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W6_out m ρ c), (h c).2⟩) (run_named m ρ)

end Cert.KernelIdeal.Hand

end
-- ==== Proof.HostAt.lean ====
/-
  The kernel program's host pieces read at one entry, over the extended reals.

  The neighbour mean at (p, k) is the neighbour sum at (p, k) times one over node p's clamped in-degree. The clamped
  in-degree is a maximum with one, so it is not zero, and the product with its reciprocal is the quotient by it: the mean
  at (p, k) is the sum at (p, k) divided by max(count p, 1). The bias row at (0, q) is the bias at q. Each fact is first
  stated for arbitrary arrays in place of the sum and the count, then read at the program's own.
-/
import proofs.«177692_j26731876451050_1_alg».proof.Proof.HostTerms
import proofs.«177692_j26731876451050_1_alg».proof.Proof.Sage
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- Per node, the number of edges arriving at it: ones scattered onto zeros by destination. -/
abbrev cntOf (dst : (⟨S800000, .i32⟩ : BufTy).Contents (Elt Ideal)) : FVec Ideal S50000 .f32 :=
  Host.scatterAdd (F := Ideal) scatter_S50000_S800000x1_S800000_n_0_0_1 (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The scalar one spread over the nodes reads one at every node. -/
theorem one_at (j : S50000.Idx) : (broadcastInDim S50000 ![] bcast_S_S50000 (constant (F := Ideal) S_ .f32 0x3F800000#32)) j = Ideal.ofBits .f32 0x3F800000#32 :=
  broadcastInDim_apply _ bcast_S_S50000 (constant (F := Ideal) S_ .f32 0x3F800000#32) j ix0 (fun a => a.elim0)

/-- A per-node value spread along the node's row reads the node's value at every column. -/
theorem spread_at (v : FVec Ideal S50000 .f32) (p : Fin 50000) (k : Fin 128) :
    spread (F := Ideal) v (ix2 p k) = v (ix1 p) := by
  unfold spread
  refine (broadcastInDim_apply _ bcast_S50000x1_S50000x128_0_1 _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  exact broadcastInDim_apply _ bcast_S50000_S50000x1_0 v (ix2 p (0 : Fin 1)) (ix1 p) (fun a => match a with
    | ⟨0, _⟩ => by show p.val = if (50000 : Nat) = 1 then 0 else p.val; rw [if_neg (by decide)])

/-- The maximum of any per-node value with the spread one, at a node. -/
theorem max_one_at (a : FVec Ideal S50000 .f32) (j : S50000.Idx) :
    maximumf a (broadcastInDim S50000 ![] bcast_S_S50000 (constant (F := Ideal) S_ .f32 0x3F800000#32)) j = max (a j) (Ideal.ofBits .f32 0x3F800000#32) := by
  show max (a j) ((broadcastInDim S50000 ![] bcast_S_S50000 (constant (F := Ideal) S_ .f32 0x3F800000#32)) j) = _
  rw [one_at]

/-- The clamped count at a node is the maximum of the count and one. -/
theorem cmax_at (dst : (⟨S800000, .i32⟩ : BufTy).Contents (Elt Ideal)) (j : S50000.Idx) :
    cmaxOf dst j = max (cntOf dst j) (Ideal.ofBits .f32 0x3F800000#32) := by
  unfold cmaxOf
  exact max_one_at (cntOf dst) j

/-- For ANY array `s` in place of the neighbour sum and any per-node `c` in place of the count: `s` times the spread
    reciprocal of max(c, 1), at (p, k), is s[p,k] divided by max(c[p], 1). -/
theorem mean_core (s : FVec Ideal S50000x128 .f32) (c : FVec Ideal S50000 .f32) (p : Fin 50000) (k : Fin 128) :
    mulf s (spread (F := Ideal) (Host.divf (broadcastInDim S50000 ![] bcast_S_S50000 (constant (F := Ideal) S_ .f32 0x3F800000#32)) (maximumf c (broadcastInDim S50000 ![] bcast_S_S50000 (constant (F := Ideal) S_ .f32 0x3F800000#32))))) (ix2 p k)
      = Ideal.div (s (ix2 p k)) (max (c (ix1 p)) (Ideal.ofBits .f32 0x3F800000#32)) := by
  show s (ix2 p k) * spread (F := Ideal) (Host.divf (broadcastInDim S50000 ![] bcast_S_S50000 (constant (F := Ideal) S_ .f32 0x3F800000#32)) (maximumf c (broadcastInDim S50000 ![] bcast_S_S50000 (constant (F := Ideal) S_ .f32 0x3F800000#32)))) (ix2 p k) = _
  rw [spread_at]
  show s (ix2 p k) * Ideal.div ((broadcastInDim S50000 ![] bcast_S_S50000 (constant (F := Ideal) S_ .f32 0x3F800000#32)) (ix1 p)) (maximumf c (broadcastInDim S50000 ![] bcast_S_S50000 (constant (F := Ideal) S_ .f32 0x3F800000#32)) (ix1 p)) = _
  rw [one_at, max_one_at]
  exact Cert.Sage.mul_recip_max_one _ _

/-- The kernel's neighbour mean at (p, k): the sum divided by the clamped count of node p. -/
theorem mean_at (h : (⟨S50000x128, .f32⟩ : BufTy).Contents (Elt Ideal)) (src dst : (⟨S800000, .i32⟩ : BufTy).Contents (Elt Ideal)) (p : Fin 50000) (k : Fin 128) :
    meanOf h src dst (invOf dst) (ix2 p k)
      = Ideal.div (summedOf h src dst (ix2 p k)) (max (cntOf dst (ix1 p)) (Ideal.ofBits .f32 0x3F800000#32)) := by
  unfold meanOf invOf cmaxOf
  exact mean_core (summedOf h src dst) (cntOf dst) p k

/-- The bias as a row, at column q, is the bias at q. -/
theorem row_at (bl : FVec Ideal S128 .f32) (q : Fin 128) : rowOf (F := Ideal) bl (ix2 (0 : Fin 1) q) = bl (ix1 q) :=
  shapeCast_apply bl shapeCasts_S128_S1x128 (ix2 (0 : Fin 1) q) (ix1 q) (by
    rw [Shape.rowMajor_val_one, Shape.rowMajor_val_two]
    show q.val = 0 * 128 + q.val
    omega)

end Cert.KernelIdeal.Hand

end
-- ==== Proof.RefTerms.lean ====
/-
  The reference program as three layers.

  One reference layer takes the features, gathers and sums them per destination node, divides each node's sum by its
  clamped in-degree, multiplies by the transposed neighbour weights, adds the bias, and adds the features times the
  transposed own-feature weights. The first two layers are followed by a maximum with zero. The reference program's
  result, as a term of its arguments, is the third layer of the activated second layer of the activated first layer.
-/
import proofs.«177692_j26731876451050_1_alg».proof.Proof.Gen.ReferenceIdeal.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The edges' source nodes: row 0 of the edge list, as a vector. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list, as a vector. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- Per node, the number of edges arriving at it (ones scattered onto zeros by destination), at least one. -/
def cmaxOf (dst : (⟨S800000, .i32⟩ : BufTy).Contents (Elt F)) : (⟨S50000, .f32⟩ : BufTy).Contents (Elt F) :=
  maximumf (Host.scatterAdd scatter_S50000_S800000x1_S800000_n_0_0_1 (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- Per node, one over that count. -/
def invOf (dst : (⟨S800000, .i32⟩ : BufTy).Contents (Elt F)) : (⟨S50000, .f32⟩ : BufTy).Contents (Elt F) :=
  Host.divf (broadcastInDim S50000 ![] bcast_S_S50000 (constant S_ .f32 0x3F800000#32)) (cmaxOf dst)

/-- Per node, the sum of its in-neighbours' feature rows: the rows gathered by source (a negative index counted from
    the end), scatter-added onto zeros by destination. -/
def summedOf (h : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A per-node number spread along its node's row. -/
def spread (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- One layer of the reference, before the activation. -/
def layerR (h : (⟨S50000x128, .f32⟩ : BufTy).Contents (Elt F)) (src dst : (⟨S800000, .i32⟩ : BufTy).Contents (Elt F))
    (wl : (⟨S128x128, .f32⟩ : BufTy).Contents (Elt F)) (bl : (⟨S128, .f32⟩ : BufTy).Contents (Elt F))
    (wr : (⟨S128x128, .f32⟩ : BufTy).Contents (Elt F)) : (⟨S50000x128, .f32⟩ : BufTy).Contents (Elt F) :=
  addf (addf (Host.dotGeneral dot_S50000x128_S128x128_S50000x128_1_0_0_1_n_n none (Host.divf (summedOf h src dst) (spread (cmaxOf dst)))
        (transpose S128x128 [1, 0] wl transposes_S128x128_S128x128_1_0))
      (broadcastInDim S50000x128 ![0, 1] bcast_S1x128_S50000x128_0_1 (broadcastInDim S1x128 ![1] bcast_S128_S1x128_1 bl)))
    (Host.dotGeneral dot_S50000x128_S128x128_S50000x128_1_0_0_1_n_n none h (transpose S128x128 [1, 0] wr transposes_S128x128_S128x128_1_0))

/-- The activation between layers: the maximum with zero. -/
def reluR (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

set_option maxRecDepth 16384 in
set_option maxHeartbeats 4000000 in
/-- The reference's result is three layers, the first two activated, each on the same edge list. -/
theorem res_layers (m : (ℓ : Loc nD τ sig) → Buf (Elt F) ℓ) (c : Dev nD) :
    Cert.ReferenceIdeal.Value.res_main_v86 m c
      = layerR (reluR (layerR (reluR (layerR (m ((c.tc : Thread nD τ).loc main_arg0)) (srcOf (m ((c.tc : Thread nD τ).loc main_arg1))) (dstOf (m ((c.tc : Thread nD τ).loc main_arg1))) (m ((c.tc : Thread nD τ).loc main_arg2)) (m ((c.tc : Thread nD τ).loc main_arg3)) (m ((c.tc : Thread nD τ).loc main_arg4))))
            (srcOf (m ((c.tc : Thread nD τ).loc main_arg1))) (dstOf (m ((c.tc : Thread nD τ).loc main_arg1))) (m ((c.tc : Thread nD τ).loc main_arg5)) (m ((c.tc : Thread nD τ).loc main_arg6)) (m ((c.tc : Thread nD τ).loc main_arg7))))
          (srcOf (m ((c.tc : Thread nD τ).loc main_arg1))) (dstOf (m ((c.tc : Thread nD τ).loc main_arg1))) (m ((c.tc : Thread nD τ).loc main_arg8)) (m ((c.tc : Thread nD τ).loc main_arg9)) (m ((c.tc : Thread nD τ).loc main_arg10)) := by
  unfold Cert.ReferenceIdeal.Value.res_main_v86
  rfl

end Cert.ReferenceIdeal.Hand

end
-- ==== Proof.RefAt.lean ====
/-
  The reference's layer read at one entry, over the extended reals.

  Entry (p, q) of a reference layer is: the sum over the 128 features k of (neighbour sum at (p, k) divided by node p's
  clamped in-degree) times the transposed neighbour weight at (k, q), plus the bias at q, plus the sum over k of the
  feature at (p, k) times the transposed own-feature weight at (k, q). A host matrix product is the plain sum over the
  contracted axis here. Each fact is first stated for arbitrary arrays in place of the sum, the count and the transposed
  weights, then read at the program's own.
-/
import proofs.«177692_j26731876451050_1_alg».proof.Proof.RefTerms
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx

/-- Per node, the number of edges arriving at it: ones scattered onto zeros by destination. -/
abbrev cntOf (dst : (⟨S800000, .i32⟩ : BufTy).Contents (Elt Ideal)) : FVec Ideal S50000 .f32 :=
  Host.scatterAdd (F := Ideal) scatter_S50000_S800000x1_S800000_n_0_0_1 (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The scalar one spread over the nodes reads one at every node. -/
theorem one_at (j : S50000.Idx) : (broadcastInDim S50000 ![] bcast_S_S50000 (constant (F := Ideal) S_ .f32 0x3F800000#32)) j = Ideal.ofBits .f32 0x3F800000#32 :=
  broadcastInDim_apply _ bcast_S_S50000 (constant (F := Ideal) S_ .f32 0x3F800000#32) j ix0 (fun a => a.elim0)

/-- A per-node value spread along the node's row reads the node's value at every column. -/
theorem spread_at (v : FVec Ideal S50000 .f32) (p : Fin 50000) (k : Fin 128) :
    spread (F := Ideal) v (ix2 p k) = v (ix1 p) := by
  unfold spread
  refine (broadcastInDim_apply _ bcast_S50000x1_S50000x128_0_1 _ (ix2 p k) (ix2 p (0 : Fin 1)) (fun a => match a with
    | ⟨0, _⟩ => by show p.val = if (50000 : Nat) = 1 then 0 else p.val; rw [if_neg (by decide)]
    | ⟨1, _⟩ => by show 0 = if (1 : Nat) = 1 then 0 else k.val; rw [if_pos rfl])).trans ?_
  exact broadcastInDim_apply _ bcast_S50000_S50000x1_0 v (ix2 p (0 : Fin 1)) (ix1 p) (fun a => match a with
    | ⟨0, _⟩ => by show p.val = if (50000 : Nat) = 1 then 0 else p.val; rw [if_neg (by decide)])

/-- The maximum of any per-node value with the spread one, at a node. -/
theorem max_one_at (a : FVec Ideal S50000 .f32) (j : S50000.Idx) :
    maximumf a (broadcastInDim S50000 ![] bcast_S_S50000 (constant (F := Ideal) S_ .f32 0x3F800000#32)) j = max (a j) (Ideal.ofBits .f32 0x3F800000#32) := by
  show max (a j) ((broadcastInDim S50000 ![] bcast_S_S50000 (constant (F := Ideal) S_ .f32 0x3F800000#32)) j) = _
  rw [one_at]

/-- The clamped count at a node is the maximum of the count and one. -/
theorem cmax_at (dst : (⟨S800000, .i32⟩ : BufTy).Contents (Elt Ideal)) (j : S50000.Idx) :
    cmaxOf dst j = max (cntOf dst j) (Ideal.ofBits .f32 0x3F800000#32) := by
  unfold cmaxOf
  exact max_one_at (cntOf dst) j

/-- For ANY array `s` in place of the neighbour sum and any per-node `c` in place of the count: `s` divided by the spread
    max(c, 1), at (p, k), is s[p,k] divided by max(c[p], 1). -/
theorem quot_core (s : FVec Ideal S50000x128 .f32) (c : FVec Ideal S50000 .f32) (p : Fin 50000) (k : Fin 128) :
    Host.divf s (spread (F := Ideal) (maximumf c (broadcastInDim S50000 ![] bcast_S_S50000 (constant (F := Ideal) S_ .f32 0x3F800000#32)))) (ix2 p k)
      = Ideal.div (s (ix2 p k)) (max (c (ix1 p)) (Ideal.ofBits .f32 0x3F800000#32)) := by
  show Ideal.div (s (ix2 p k)) (spread (F := Ideal) (maximumf c (broadcastInDim S50000 ![] bcast_S_S50000 (constant (F := Ideal) S_ .f32 0x3F800000#32))) (ix2 p k)) = _
  rw [spread_at, max_one_at]

/-- The bias spread over all rows reads the bias at the column. -/
theorem bias_at (bl : FVec Ideal S128 .f32) (p : Fin 50000) (q : Fin 128) :
    broadcastInDim S50000x128 ![0, 1] bcast_S1x128_S50000x128_0_1 (broadcastInDim S1x128 ![1] bcast_S128_S1x128_1 bl) (ix2 p q) = bl (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 bl (ix2 (0 : Fin 1) q) (ix1 q) (fun a => match a with
    | ⟨0, _⟩ => by show q.val = if (128 : Nat) = 1 then 0 else q.val; rw [if_neg (by decide)])

/-- The scalar zero spread over the whole array reads zero everywhere. -/
theorem zero_at (i : S50000x128.Idx) :
    broadcastInDim S50000x128 ![] bcast_S_S50000x128 (constant (F := Ideal) S_ .f32 0x00000000#32) i = Ideal.ofBits .f32 0x00000000#32 :=
  broadcastInDim_apply _ bcast_S_S50000x128 (constant (F := Ideal) S_ .f32 0x00000000#32) i ix0 (fun a => a.elim0)

/-- The host's product of a [50000, 128] array with a [128, 128] matrix: entry (p, q) is the sum over the 128 contracted
    positions. -/
theorem dot_at {φ₁ φ₂ : FTy} (l : FVec Ideal S50000x128 φ₁) (r : FVec Ideal S128x128 φ₂) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ =>
      show (dot_S50000x128_S128x128_S50000x128_1_0_0_1_n_n.lhsIdx (ix2 p q) _ 0).val = p.val
      unfold DotDims.lhsIdx
      rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
      rfl
    | ⟨1, _⟩ => exact (dot_S50000x128_S128x128_S50000x128_1_0_0_1_n_n.lhsIdx_val_of_single rfl (ix2 p q) _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (dot_S50000x128_S128x128_S50000x128_1_0_0_1_n_n.rhsIdx_val_of_single rfl (ix2 p q) _).trans hk
    | ⟨1, _⟩ =>
      show (dot_S50000x128_S128x128_S50000x128_1_0_0_1_n_n.rhsIdx (ix2 p q) _ 1).val = q.val
      unfold DotDims.rhsIdx
      rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
      rfl)
  rw [el, er]

/-- The maximum of any array with the spread zero, at an entry. -/
theorem relu_at (z : FVec Ideal S50000x128 .f32) (i : S50000x128.Idx) :
    reluR (F := Ideal) z i = max (z i) (Ideal.ofBits .f32 0x00000000#32) := by
  show max (z i) (broadcastInDim S50000x128 ![] bcast_S_S50000x128 (constant (F := Ideal) S_ .f32 0x00000000#32) i) = _
  rw [zero_at]

/-- A layer's shape at (p, q), for ANY arrays in place of the neighbour sum `s`, the count `c` and the two transposed
    weight matrices. -/
theorem layer_core (s h : FVec Ideal S50000x128 .f32) (c : FVec Ideal S50000 .f32) (wlT wrT : FVec Ideal S128x128 .f32)
    (bl : FVec Ideal S128 .f32) (p : Fin 50000) (q : Fin 128) :
    addf (addf (Host.dotGeneral dot_S50000x128_S128x128_S50000x128_1_0_0_1_n_n none (Host.divf s (spread (F := Ideal) (maximumf c (broadcastInDim S50000 ![] bcast_S_S50000 (constant (F := Ideal) S_ .f32 0x3F800000#32))))) wlT)
        (broadcastInDim S50000x128 ![0, 1] bcast_S1x128_S50000x128_0_1 (broadcastInDim S1x128 ![1] bcast_S128_S1x128_1 bl)))
      (Host.dotGeneral dot_S50000x128_S128x128_S50000x128_1_0_0_1_n_n none h wrT) (ix2 p q)
      = ((∑ k : Fin 128, Ideal.div (s (ix2 p k)) (max (c (ix1 p)) (Ideal.ofBits .f32 0x3F800000#32)) * wlT (ix2 k q)) + bl (ix1 q))
        + ∑ k : Fin 128, h (ix2 p k) * wrT (ix2 k q) := by
  show (Host.dotGeneral dot_S50000x128_S128x128_S50000x128_1_0_0_1_n_n none (Host.divf s (spread (F := Ideal) (maximumf c (broadcastInDim S50000 ![] bcast_S_S50000 (constant (F := Ideal) S_ .f32 0x3F800000#32))))) wlT (ix2 p q)
      + broadcastInDim S50000x128 ![0, 1] bcast_S1x128_S50000x128_0_1 (broadcastInDim S1x128 ![1] bcast_S128_S1x128_1 bl) (ix2 p q))
    + Host.dotGeneral dot_S50000x128_S128x128_S50000x128_1_0_0_1_n_n none h wrT (ix2 p q) = _
  rw [dot_at, dot_at, bias_at]
  congr 2
  refine Finset.sum_congr rfl fun k _ => ?_
  rw [quot_core]

/-- A reference layer at (p, q). -/
theorem layerR_at (h : (⟨S50000x128, .f32⟩ : BufTy).Contents (Elt Ideal)) (src dst : (⟨S800000, .i32⟩ : BufTy).Contents (Elt Ideal))
    (wl : (⟨S128x128, .f32⟩ : BufTy).Contents (Elt Ideal)) (bl : (⟨S128, .f32⟩ : BufTy).Contents (Elt Ideal)) (wr : (⟨S128x128, .f32⟩ : BufTy).Contents (Elt Ideal)) (p : Fin 50000) (q : Fin 128) :
    layerR h src dst wl bl wr (ix2 p q)
      = ((∑ k : Fin 128, Ideal.div (summedOf h src dst (ix2 p k)) (max (cntOf dst (ix1 p)) (Ideal.ofBits .f32 0x3F800000#32))
            * (transpose S128x128 [1, 0] wl transposes_S128x128_S128x128_1_0) (ix2 k q))
          + bl (ix1 q))
        + ∑ k : Fin 128, h (ix2 p k) * (transpose S128x128 [1, 0] wr transposes_S128x128_S128x128_1_0) (ix2 k q) := by
  unfold layerR cmaxOf
  exact layer_core (summedOf h src dst) h (cntOf dst) (transpose S128x128 [1, 0] wl transposes_S128x128_S128x128_1_0) (transpose S128x128 [1, 0] wr transposes_S128x128_S128x128_1_0) bl p q

end Cert.ReferenceIdeal.Hand

end
-- ==== Proof.Bridge.lean ====
/-
  A reference layer is a kernel layer.

  At entry (p, q) both are built from the same numbers: the neighbour sums S[p,k] (the same gather and scatter-add of the
  same features along the same edge list in both programs), node p's clamped in-degree c[p] = max(count p, 1), the
  features h[p,k], the two transposed weight matrices and the bias. The reference computes

      (∑ₖ (S[p,k] / c[p]) · Wlᵀ[k,q]  +  bl[q])  +  ∑ₖ h[p,k] · Wrᵀ[k,q],

  the kernel

      (∑ₖ (S[p,k] · (1 / c[p])) · Wlᵀ[k,q]  +  ∑ₖ h[p,k] · Wrᵀ[k,q])  +  bl[q].

  The quotient is the product with the reciprocal because c[p] ≥ 1 is not zero, and the three summands may be added in
  either order; neither step asks the numbers to be finite. The activation is the same maximum with zero on both sides.
  So the reference's three layers are the kernel's three layers.
-/
import proofs.«177692_j26731876451050_1_alg».proof.Proof.Chain
import proofs.«177692_j26731876451050_1_alg».proof.Proof.HostAt
import proofs.«177692_j26731876451050_1_alg».proof.Proof.RefAt

set_option maxRecDepth 16384

noncomputable section

namespace Cert.Bridge

open Idealize.ShloMosaic Idealize.ShloMosaic.ValueIdx

/-! ## The two programs spell the same host operations -/

/-- The source row, in either program's words. -/
theorem src_eq (e : (⟨Cert.KernelIdeal.S2x800000, .i32⟩ : BufTy).Contents (Elt Ideal)) : Cert.KernelIdeal.Hand.srcOf (F := Ideal) e = Cert.ReferenceIdeal.Hand.srcOf e := rfl
/-- The destination row, in either program's words. -/
theorem dst_eq (e : (⟨Cert.KernelIdeal.S2x800000, .i32⟩ : BufTy).Contents (Elt Ideal)) : Cert.KernelIdeal.Hand.dstOf (F := Ideal) e = Cert.ReferenceIdeal.Hand.dstOf e := rfl
/-- The neighbour sum, in either program's words. -/
theorem summed_eq (h : (⟨Cert.KernelIdeal.S50000x128, .f32⟩ : BufTy).Contents (Elt Ideal)) (src dst : (⟨Cert.KernelIdeal.S800000, .i32⟩ : BufTy).Contents (Elt Ideal)) :
    Cert.KernelIdeal.Hand.summedOf (F := Ideal) h src dst = Cert.ReferenceIdeal.Hand.summedOf h src dst := rfl
/-- The in-degree count, in either program's words. -/
theorem cnt_eq (dst : (⟨Cert.KernelIdeal.S800000, .i32⟩ : BufTy).Contents (Elt Ideal)) : Cert.KernelIdeal.Hand.cntOf dst = Cert.ReferenceIdeal.Hand.cntOf dst := rfl
open Cert.ReferenceIdeal Cert.ReferenceIdeal.Gen in
/-- A transposed weight matrix, in either program's words. -/
theorem tr_eq (w : (⟨Cert.KernelIdeal.S128x128, .f32⟩ : BufTy).Contents (Elt Ideal)) :
    Cert.KernelIdeal.Hand.trOf (F := Ideal) w = transpose S128x128 [1, 0] w transposes_S128x128_S128x128_1_0 := rfl

/-! ## The dense step at an entry, for each activation -/

/-- Without the maximum with zero. -/
theorem dense_false_at (mean h : Cert.Sage.Nodes.Idx → EReal) (wl wr : Cert.Sage.Wts.Idx → EReal) (b : Cert.Sage.Row.Idx → EReal)
    (p : Fin 50000) (q : Fin 128) :
    Cert.Sage.dense false mean h wl wr b (ix2 p q)
      = ((∑ k : Fin 128, mean (ix2 p k) * wl (ix2 k q)) + ∑ k : Fin 128, h (ix2 p k) * wr (ix2 k q)) + b (ix2 (0 : Fin 1) q) := rfl

/-- With it. -/
theorem dense_true_at (mean h : Cert.Sage.Nodes.Idx → EReal) (wl wr : Cert.Sage.Wts.Idx → EReal) (b : Cert.Sage.Row.Idx → EReal)
    (p : Fin 50000) (q : Fin 128) :
    Cert.Sage.dense true mean h wl wr b (ix2 p q)
      = max (((∑ k : Fin 128, mean (ix2 p k) * wl (ix2 k q)) + ∑ k : Fin 128, h (ix2 p k) * wr (ix2 k q)) + b (ix2 (0 : Fin 1) q))
          (Ideal.ofBits .f32 0x00000000#32) := rfl

/-! ## Layer by layer -/

/-- A reference layer at (p, q), written with the kernel program's pieces. -/
theorem layer_at (h : (⟨Cert.KernelIdeal.S50000x128, .f32⟩ : BufTy).Contents (Elt Ideal)) (e : (⟨Cert.KernelIdeal.S2x800000, .i32⟩ : BufTy).Contents (Elt Ideal)) (wl : (⟨Cert.KernelIdeal.S128x128, .f32⟩ : BufTy).Contents (Elt Ideal)) (bl : (⟨Cert.KernelIdeal.S128, .f32⟩ : BufTy).Contents (Elt Ideal)) (wr : (⟨Cert.KernelIdeal.S128x128, .f32⟩ : BufTy).Contents (Elt Ideal)) (p : Fin 50000) (q : Fin 128) :
    Cert.ReferenceIdeal.Hand.layerR (F := Ideal) h (Cert.ReferenceIdeal.Hand.srcOf e) (Cert.ReferenceIdeal.Hand.dstOf e) wl bl wr (ix2 p q)
      = ((∑ k : Fin 128, Cert.KernelIdeal.Hand.meanOf h (Cert.KernelIdeal.Hand.srcOf e) (Cert.KernelIdeal.Hand.dstOf e) (Cert.KernelIdeal.Hand.invOf (Cert.KernelIdeal.Hand.dstOf e)) (ix2 p k) * Cert.KernelIdeal.Hand.trOf wl (ix2 k q))
          + ∑ k : Fin 128, h (ix2 p k) * Cert.KernelIdeal.Hand.trOf wr (ix2 k q))
        + Cert.KernelIdeal.Hand.rowOf bl (ix2 (0 : Fin 1) q) := by
  rw [Cert.ReferenceIdeal.Hand.layerR_at]
  simp only [Cert.KernelIdeal.Hand.mean_at, Cert.KernelIdeal.Hand.row_at]
  rw [add_right_comm, src_eq, dst_eq, summed_eq, cnt_eq, tr_eq, tr_eq]

/-- The reference's last layer (no activation) is the kernel's. -/
theorem last_eq (h : (⟨Cert.KernelIdeal.S50000x128, .f32⟩ : BufTy).Contents (Elt Ideal)) (e : (⟨Cert.KernelIdeal.S2x800000, .i32⟩ : BufTy).Contents (Elt Ideal)) (wl : (⟨Cert.KernelIdeal.S128x128, .f32⟩ : BufTy).Contents (Elt Ideal)) (bl : (⟨Cert.KernelIdeal.S128, .f32⟩ : BufTy).Contents (Elt Ideal)) (wr : (⟨Cert.KernelIdeal.S128x128, .f32⟩ : BufTy).Contents (Elt Ideal)) :
    Cert.ReferenceIdeal.Hand.layerR (F := Ideal) h (Cert.ReferenceIdeal.Hand.srcOf e) (Cert.ReferenceIdeal.Hand.dstOf e) wl bl wr = Cert.KernelIdeal.Hand.layerK false h e wl bl wr := by
  funext i
  obtain ⟨p, q, rfl⟩ : ∃ (p : Fin 50000) (q : Fin 128), i = ix2 p q := ⟨i 0, i 1, eq_ix2 i⟩
  unfold Cert.KernelIdeal.Hand.layerK
  rw [layer_at, dense_false_at]

/-- An activated reference layer is the kernel's activated layer. -/
theorem relu_eq (h : (⟨Cert.KernelIdeal.S50000x128, .f32⟩ : BufTy).Contents (Elt Ideal)) (e : (⟨Cert.KernelIdeal.S2x800000, .i32⟩ : BufTy).Contents (Elt Ideal)) (wl : (⟨Cert.KernelIdeal.S128x128, .f32⟩ : BufTy).Contents (Elt Ideal)) (bl : (⟨Cert.KernelIdeal.S128, .f32⟩ : BufTy).Contents (Elt Ideal)) (wr : (⟨Cert.KernelIdeal.S128x128, .f32⟩ : BufTy).Contents (Elt Ideal)) :
    Cert.ReferenceIdeal.Hand.reluR (Cert.ReferenceIdeal.Hand.layerR (F := Ideal) h (Cert.ReferenceIdeal.Hand.srcOf e) (Cert.ReferenceIdeal.Hand.dstOf e) wl bl wr) = Cert.KernelIdeal.Hand.layerK true h e wl bl wr := by
  funext i
  obtain ⟨p, q, rfl⟩ : ∃ (p : Fin 50000) (q : Fin 128), i = ix2 p q := ⟨i 0, i 1, eq_ix2 i⟩
  unfold Cert.KernelIdeal.Hand.layerK
  rw [Cert.ReferenceIdeal.Hand.relu_at, layer_at, dense_true_at]

/-- The reference's three layers are the kernel's three layers. -/
theorem result_eq (x : (⟨Cert.KernelIdeal.S50000x128, .f32⟩ : BufTy).Contents (Elt Ideal)) (e : (⟨Cert.KernelIdeal.S2x800000, .i32⟩ : BufTy).Contents (Elt Ideal)) (wl0 : (⟨Cert.KernelIdeal.S128x128, .f32⟩ : BufTy).Contents (Elt Ideal)) (bl0 : (⟨Cert.KernelIdeal.S128, .f32⟩ : BufTy).Contents (Elt Ideal)) (wr0 : (⟨Cert.KernelIdeal.S128x128, .f32⟩ : BufTy).Contents (Elt Ideal)) (wl1 : (⟨Cert.KernelIdeal.S128x128, .f32⟩ : BufTy).Contents (Elt Ideal)) (bl1 : (⟨Cert.KernelIdeal.S128, .f32⟩ : BufTy).Contents (Elt Ideal)) (wr1 : (⟨Cert.KernelIdeal.S128x128, .f32⟩ : BufTy).Contents (Elt Ideal))
    (wl2 : (⟨Cert.KernelIdeal.S128x128, .f32⟩ : BufTy).Contents (Elt Ideal)) (bl2 : (⟨Cert.KernelIdeal.S128, .f32⟩ : BufTy).Contents (Elt Ideal)) (wr2 : (⟨Cert.KernelIdeal.S128x128, .f32⟩ : BufTy).Contents (Elt Ideal)) :
    Cert.ReferenceIdeal.Hand.layerR (F := Ideal) (Cert.ReferenceIdeal.Hand.reluR (Cert.ReferenceIdeal.Hand.layerR (Cert.ReferenceIdeal.Hand.reluR (Cert.ReferenceIdeal.Hand.layerR x (Cert.ReferenceIdeal.Hand.srcOf e) (Cert.ReferenceIdeal.Hand.dstOf e) wl0 bl0 wr0))
        (Cert.ReferenceIdeal.Hand.srcOf e) (Cert.ReferenceIdeal.Hand.dstOf e) wl1 bl1 wr1)) (Cert.ReferenceIdeal.Hand.srcOf e) (Cert.ReferenceIdeal.Hand.dstOf e) wl2 bl2 wr2
      = Cert.KernelIdeal.Hand.layerK false (Cert.KernelIdeal.Hand.layerK true (Cert.KernelIdeal.Hand.layerK true x e wl0 bl0 wr0) e wl1 bl1 wr1) e wl2 bl2 wr2 := by
  rw [relu_eq, relu_eq, last_eq]

end Cert.Bridge

end
-- ==== Proof.lean ====
/-
  Three SAGE layers in a tiled kernel against the plain jnp reference, over the extended reals.

  Both programs compute, three times over, out = act(mean · Wlᵀ + bl + h · Wrᵀ), where mean[p] is the sum of the feature
  rows of p's in-neighbours divided by max(in-degree of p, 1), and act is the maximum with zero on the first two layers.
  The kernel program forms the mean on the host as sum × (1 / max(count, 1)), and does the two matrix products, the bias
  and the activation in a kernel launched over ten blocks of 5000 rows; the reference divides the sum by max(count, 1),
  and adds the bias between the two products.

  * The three frames: each program terminates without a fault and leaves its arguments unchanged — the two kernel
    programs by their generated frame proofs, the reference by its generated run with the result dropped.
  * `preserves`: the idealization rewrote no operation, so there is nothing to state.
  * `algebraic`: the idealized kernel's result array ends at three kernel layers of its arguments (Proof/Chain.lean: each
    launch's output array is the dense step of the arrays it was entered with, Proof/Region0-2.lean, and each stretch of
    host operations forms the next launch's arrays, Proof/Stretch0-2.lean, over the program's run with its result named,
    Proof/KernelRun.lean); the reference's result is three reference layers of its arguments (Proof/RefTerms.lean); and a
    reference layer is a kernel layer (Proof/Bridge.lean: max(count, 1) is never zero, so dividing by it is multiplying
    by its reciprocal, and the three summands add in either order — no finiteness of the inputs is used).
-/
import proofs.«177692_j26731876451050_1_alg».proof.Defs
import proofs.«177692_j26731876451050_1_alg».proof.Proof.Gen.Kernel
import proofs.«177692_j26731876451050_1_alg».proof.Proof.Gen.Kernel.Skeleton
import proofs.«177692_j26731876451050_1_alg».proof.Proof.Gen.Kernel.Launch
import proofs.«177692_j26731876451050_1_alg».proof.Proof.Gen.Kernel.Points
import proofs.«177692_j26731876451050_1_alg».proof.Proof.Gen.Kernel.Frame
import proofs.«177692_j26731876451050_1_alg».proof.Proof.Gen.KernelIdeal
import proofs.«177692_j26731876451050_1_alg».proof.Proof.Gen.KernelIdeal.Skeleton
import proofs.«177692_j26731876451050_1_alg».proof.Proof.Gen.KernelIdeal.Launch
import proofs.«177692_j26731876451050_1_alg».proof.Proof.Gen.KernelIdeal.Points
import proofs.«177692_j26731876451050_1_alg».proof.Proof.Gen.KernelIdeal.Frame
import proofs.«177692_j26731876451050_1_alg».proof.Proof.Gen.ReferenceIdeal
import proofs.«177692_j26731876451050_1_alg».proof.Proof.Gen.Pre_finite_inputs
import proofs.«177692_j26731876451050_1_alg».proof.Proof.Gen.ReferenceIdeal.Run
import proofs.«177692_j26731876451050_1_alg».proof.Proof.Gen.ReferenceIdeal.Read
import proofs.«177692_j26731876451050_1_alg».proof.Proof.Bridge
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result array: the kernel's three
    layers, which the reference's three layers equal. -/
theorem algebraic : Cert.algebraic_KernelIdeal_ReferenceIdeal := by
  intro m ρ m' ρ' _ hagree
  refine ⟨fun c => Cert.KernelIdeal.Hand.out3 m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Hand.res_layers, a0, a1, a2, a3, a4, a5, a6, a7, a8, a9, a10]
  exact Cert.Bridge.result_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
